-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S128 : Shape := ⟨1, ![128]⟩
abbrev S128x128 : Shape := ⟨2, ![128, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S262144x128 .f32) (main_arg1 : FVec F S262144x128 .f32) (main_arg2 : FVec F S128 .f32) (main_arg3 : FVec F S128 .f32) (main_arg4 : FVec F S128x128 .f32) (main_arg5 : FVec F S128x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S262144x128 : Shape := ⟨2, ![262144, 128]⟩
abbrev S128 : Shape := ⟨1, ![128]⟩
abbrev S128x128 : Shape := ⟨2, ![128, 128]⟩
abbrev S_ : Shape := ⟨0, ![]⟩
abbrev S8x128 : Shape := ⟨2, ![8, 128]⟩
abbrev S1 : Shape := ⟨1, ![1]⟩
abbrev S8192x128 : Shape := ⟨2, ![8192, 128]⟩
abbrev S1x128 : Shape := ⟨2, ![1, 128]⟩

abbrev nBuf : Space → Nat
  | .hbm => 58
  | .vmem => 8
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S_, .f32⟩
  | .hbm, ⟨28, _⟩ => ⟨S128x128, .f32⟩
  | .hbm, ⟨29, _⟩ => ⟨S128x128, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S_, .f32⟩
  | .hbm, ⟨36, _⟩ => ⟨S128x128, .f32⟩
  | .hbm, ⟨37, _⟩ => ⟨S128x128, .f32⟩
  | .hbm, ⟨38, _⟩ => ⟨S128x128, .bf16⟩
  | .hbm, ⟨39, _⟩ => ⟨S128x128, .f32⟩
  | .hbm, ⟨40, _⟩ => ⟨S128x128, .f32⟩
  | .hbm, ⟨41, _⟩ => ⟨S_, .f32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S_, .f32⟩
  | .hbm, ⟨47, _⟩ => ⟨S8x128, .f32⟩
  | .hbm, ⟨48, _⟩ => ⟨S_, .i32⟩
  | .hbm, ⟨49, _⟩ => ⟨S1, .i32⟩
  | .hbm, ⟨50, _⟩ => ⟨S8x128, .f32⟩
  | .hbm, ⟨51, _⟩ => ⟨S_, .i32⟩
  | .hbm, ⟨52, _⟩ => ⟨S1, .i32⟩
  | .hbm, ⟨53, _⟩ => ⟨S8x128, .f32⟩
  | .hbm, ⟨54, _⟩ => ⟨S_, .i32⟩
  | .hbm, ⟨55, _⟩ => ⟨S1, .i32⟩
  | .hbm, ⟨56, _⟩ => ⟨S8x128, .f32⟩
  | .hbm, ⟨57, _⟩ => ⟨S262144x128, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8x128, .f32⟩
  | .local _ .vmem, ⟨5, _⟩ => ⟨S128x128, .bf16⟩
  | .local _ .vmem, ⟨6, _⟩ => ⟨S8192x128, .f32⟩
  | .local _ .vmem, ⟨7, _⟩ => ⟨S8192x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_cst_1 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v1 : Ref sig .tc := ⟨.hbm, 21, rfl⟩
abbrev main_cst_3 : Ref sig .tc := ⟨.hbm, 22, rfl⟩
abbrev main_cst_4 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v2 : Ref sig .tc := ⟨.hbm, 29, rfl⟩
abbrev main_cst_5 : Ref sig .tc := ⟨.hbm, 30, rfl⟩
abbrev main_cst_6 : Ref sig .tc := ⟨.hbm, 31, rfl⟩
abbrev main_call3_v0 : Ref sig .tc := ⟨.hbm, 32, rfl⟩
abbrev main_call3_v1 : Ref sig .tc := ⟨.hbm, 33, rfl⟩
abbrev main_call3_v2 : Ref sig .tc := ⟨.hbm, 34, rfl⟩
abbrev main_call3_v3 : Ref sig .tc := ⟨.hbm, 35, rfl⟩
abbrev main_call3_v4 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_cst_7 : Ref sig .tc := ⟨.hbm, 41, rfl⟩
abbrev main_v7 : Ref sig .tc := ⟨.hbm, 42, rfl⟩
abbrev main_cst_8 : Ref sig .tc := ⟨.hbm, 43, rfl⟩
abbrev main_v8 : Ref sig .tc := ⟨.hbm, 44, rfl⟩
abbrev main_v9 : Ref sig .tc := ⟨.hbm, 45, rfl⟩
abbrev main_cst_9 : Ref sig .tc := ⟨.hbm, 46, rfl⟩
abbrev main_v10 : Ref sig .tc := ⟨.hbm, 47, rfl⟩
abbrev main_c : Ref sig .tc := ⟨.hbm, 48, rfl⟩
abbrev main_v11 : Ref sig .tc := ⟨.hbm, 49, rfl⟩
abbrev main_v12 : Ref sig .tc := ⟨.hbm, 50, rfl⟩
abbrev main_c_10 : Ref sig .tc := ⟨.hbm, 51, rfl⟩
abbrev main_v13 : Ref sig .tc := ⟨.hbm, 52, rfl⟩
abbrev main_v14 : Ref sig .tc := ⟨.hbm, 53, rfl⟩
abbrev main_c_11 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S128 : S_.BroadcastsInDim S128 (![] : Fin 0 → Fin S128.rank)
  bcast_S_S128x128 : S_.BroadcastsInDim S128x128 (![] : Fin 0 → Fin S128x128.rank)
  bitsLt_bf16_f32 : FTy.bits .bf16 < FTy.bits .f32
  reducesTo_S128x128_S128_d0 : S128x128.ReducesTo [0] S128
  h_S_ : 0 < S_.numel
  bcast_S_S8x128 : S_.BroadcastsInDim S8x128 (![] : Fin 0 → Fin S8x128.rank)
  bcast_S_S1 : S_.BroadcastsInDim S1 (![] : Fin 0 → Fin S1.rank)
  inb_S8192x128_S8192x128_0_0 : ∀ a, (![0, 0] : Fin 2 → Nat) a + S8192x128.size a ≤ S8192x128.size a
  h_S8192x128 : 0 < S8192x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8x128_S1x128_0_0 : ∀ a, (![0, 0] : Fin 2 → Nat) a + S1x128.size a ≤ S8x128.size a
  h_S1x128 : 0 < S1x128.numel
  shapeCasts_S1x128_S1x128 : S1x128.ShapeCasts S1x128
  inb_S8x128_S1x128_1_0 : ∀ a, (![1, 0] : Fin 2 → Nat) a + S1x128.size a ≤ S8x128.size a
  inb_S8x128_S1x128_2_0 : ∀ a, (![2, 0] : Fin 2 → Nat) a + S1x128.size a ≤ S8x128.size a
  broadcasts_S1x128_S8192x128 : S1x128.Broadcasts S8192x128
  scatter_S8x128_S1_S128_0_0_0_0_wf : ScatterDims.WF S8x128 S1 S128 [0] [0] [0] 0
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S262144x128.size a
  hwx0_4 : ∀ i : grid0.Coords, EltTy.bits .f32 = 32 ∨ (Rect.block (s := S262144x128) S8192x128.size (cc0_transform_4 i) (hinb0_4 i)).WholeWords (EltTy.packing .f32)

variable [Facts₀]

def scatter_S8x128_S1_S128_0_0_0_0 : ScatterDims S8x128 S1 S128 where
  updateWindowDims := [0]
  insertedWindowDims := [0]
  scatterDimsToOperandDims := [0]
  indexVectorDim := 0
  wf := scatter_S8x128_S1_S128_0_0_0_0_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S8192x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x128 : Shape := ⟨2, ![262144, 128]⟩
abbrev S128 : Shape := ⟨1, ![128]⟩
abbrev S128x128 : Shape := ⟨2, ![128, 128]⟩
abbrev S_ : Shape := ⟨0, ![]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S_, .f32⟩
  | .hbm, ⟨28, _⟩ => ⟨S128x128, .f32⟩
  | .hbm, ⟨29, _⟩ => ⟨S128x128, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S_, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S_, .f32⟩
  | .hbm, ⟨40, _⟩ => ⟨S128, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S262144x128, .f32⟩
  | .hbm, ⟨45, _⟩ => ⟨S262144x128, .f32⟩
  | .hbm, ⟨46, _⟩ => ⟨S_, .f32⟩
  | .hbm, ⟨47, _⟩ => ⟨S262144x128, .f32⟩
  | .hbm, ⟨48, _⟩ => ⟨S262144x128, .f32⟩
  | .hbm, ⟨49, _⟩ => ⟨S262144x128, .f32⟩
  | .hbm, ⟨50, _⟩ => ⟨S1x128, .f32⟩
  | .hbm, ⟨51, _⟩ => ⟨S262144x128, .f32⟩
  | .hbm, ⟨52, _⟩ => ⟨S262144x128, .f32⟩
  | .hbm, ⟨53, _⟩ => ⟨S262144x128, .f32⟩
  | .hbm, ⟨54, _⟩ => ⟨S128, .f32⟩
  | .hbm, ⟨55, _⟩ => ⟨S1x128, .f32⟩
  | .hbm, ⟨56, _⟩ => ⟨S262144x128, .f32⟩
  | .hbm, ⟨57, _⟩ => ⟨S262144x128, .f32⟩
  | .hbm, ⟨58, _⟩ => ⟨S1x128, .f32⟩
  | .hbm, ⟨59, _⟩ => ⟨S262144x128, .f32⟩
  | .hbm, ⟨60, _⟩ => ⟨S262144x128, .f32⟩
  | .hbm, ⟨61, _⟩ => ⟨S262144x128, .f32⟩
  | .hbm, ⟨62, _⟩ => ⟨S262144x128, .f32⟩
  | .hbm, ⟨63, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_cst_1 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v1 : Ref sig .tc := ⟨.hbm, 21, rfl⟩
abbrev main_cst_3 : Ref sig .tc := ⟨.hbm, 22, rfl⟩
abbrev main_cst_4 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v2 : Ref sig .tc := ⟨.hbm, 29, rfl⟩
abbrev main_cst_5 : Ref sig .tc := ⟨.hbm, 30, rfl⟩
abbrev main_cst_6 : Ref sig .tc := ⟨.hbm, 31, rfl⟩
abbrev main_call3_v0 : Ref sig .tc := ⟨.hbm, 32, rfl⟩
abbrev main_call3_v1 : Ref sig .tc := ⟨.hbm, 33, rfl⟩
abbrev main_call3_v2 : Ref sig .tc := ⟨.hbm, 34, rfl⟩
abbrev main_call3_v3 : Ref sig .tc := ⟨.hbm, 35, rfl⟩
abbrev main_call3_v4 : Ref sig .tc := ⟨.hbm, 36, rfl⟩
abbrev main_v3 : Ref sig .tc := ⟨.hbm, 37, rfl⟩
abbrev main_v4 : Ref sig .tc := ⟨.hbm, 38, rfl⟩
abbrev main_cst_7 : Ref sig .tc := ⟨.hbm, 39, rfl⟩
abbrev main_v5 : Ref sig .tc := ⟨.hbm, 40, rfl⟩
abbrev main_cst_8 : Ref sig .tc := ⟨.hbm, 41, rfl⟩
abbrev main_cst_9 : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S_S128x128 : S_.BroadcastsInDim S128x128 (![] : Fin 0 → Fin S128x128.rank)
  reducesTo_S128x128_S128_d0 : S128x128.ReducesTo [0] S128
  h_S_ : 0 < S_.numel
  bcast_S_S262144x128 : S_.BroadcastsInDim S262144x128 (![] : Fin 0 → Fin S262144x128.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  dot_S262144x128_S128x128_S262144x128_1_0_0_1_n_n_wf : DotDims.WF S262144x128 S128x128 S262144x128 [1] [0] [0] [1] [] []

variable [Facts₀]

def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf

class Facts : Prop extends Facts₀ where

variable [Facts]
-- ==== Proof.Spec.lean ====
/-
  One step of the synaptic cell, as a function of the argument arrays, index by index, on the extended reals.

  With  g = clamp(Gm, 0.01, 1),  b = clamp(bm, -1, 1),  M = clamp(Gmax, 0, 1),  E = clamp(Esyn, -3, 3)  and
  act x = clamp(x, 0, 1), the synaptic term at row p, column q is

      syn p q = act (h p q) * ( (0 + Σ_k M k q * E k q)  -  Σ_k h p k * M k q ).

  The update is written in two arrangements of the leak term:

      stepFused  p q = (((1 - g q) * h p q + b q) + i_app p q) + syn p q            -- the leak folded into one factor
      stepSplit  p q = h p q + ((((-(g q)) * h p q + b q) + i_app p q) + syn p q)   -- the state plus its increment

  They are the same extended real wherever `h p q` and `g q` are real numbers: (1 - g) * h = h + (-g) * h is
  distributivity, which holds for reals (at an infinite `h` the two sides can differ), and the rest is
  associativity of the sum, which holds on all extended reals.
  The float literals stay as their bit patterns: the same word on both sides is never evaluated; only the word
  of 1.0 in the leak factor is read as the real number one.
-/
import Idealize.ShloMosaic.PureOps.Ideal.Laws
import Idealize.ShloMosaic.Lib.ValueIdx
import Idealize.ShloMosaic.Lib.IdealHost

noncomputable section

namespace Cert.SynStep

open Idealize.ShloMosaic Idealize.ShloMosaic.ValueIdx

/-- The batch of states: 262144 rows of 128 cells. -/
abbrev SBN : Shape := ⟨2, ![262144, 128]⟩
/-- One value per cell. -/
abbrev SN : Shape := ⟨1, ![128]⟩
/-- One value per ordered pair of cells (presynaptic row, postsynaptic column). -/
abbrev SNN : Shape := ⟨2, ![128, 128]⟩

/-- The membrane conductance of cell `q`, clamped to [0.01, 1]. -/
def memCond (gm : SN.Idx → EReal) (q : Fin 128) : EReal :=
  min (Ideal.ofBits .f32 0x3F800000#32) (max (Ideal.ofBits .f32 0x3C23D70A#32) (gm (ix1 q)))

/-- The bias of cell `q`, clamped to [-1, 1]. -/
def bias (bm : SN.Idx → EReal) (q : Fin 128) : EReal :=
  min (Ideal.ofBits .f32 0x3F800000#32) (max (Ideal.ofBits .f32 0xBF800000#32) (bm (ix1 q)))

/-- The synaptic conductance from cell `k` to cell `q`, clamped to [0, 1]. -/
def wgt (gmax : SNN.Idx → EReal) (k q : Fin 128) : EReal :=
  min (Ideal.ofBits .f32 0x3F800000#32) (max (Ideal.ofBits .f32 0x00000000#32) (gmax (ix2 k q)))

/-- The reversal potential of the synapse from `k` to `q`, clamped to [-3, 3]. -/
def rev (esyn : SNN.Idx → EReal) (k q : Fin 128) : EReal :=
  min (Ideal.ofBits .f32 0x40400000#32) (max (Ideal.ofBits .f32 0xC0400000#32) (esyn (ix2 k q)))

/-- The state-independent drive into cell `q`: the sum over presynaptic cells of conductance times reversal
    potential, from the zero word (a host sum starts at its initial value). -/
def drive (gmax esyn : SNN.Idx → EReal) (q : Fin 128) : EReal :=
  Ideal.ofBits .f32 0x00000000#32 + ∑ k : Fin 128, wgt gmax k q * rev esyn k q

/-- The state-dependent pull on cell `q` in row `p`: row `p` of the states times column `q` of the conductances. -/
def pull (h : SBN.Idx → EReal) (gmax : SNN.Idx → EReal) (p : Fin 262144) (q : Fin 128) : EReal :=
  ∑ k : Fin 128, h (ix2 p k) * wgt gmax k q

/-- The postsynaptic activation: the state clamped to [0, 1]. -/
def act (x : EReal) : EReal :=
  min (Ideal.ofBits .f32 0x3F800000#32) (max (Ideal.ofBits .f32 0x00000000#32) x)

/-- The synaptic term. -/
def syn (h : SBN.Idx → EReal) (gmax esyn : SNN.Idx → EReal) (p : Fin 262144) (q : Fin 128) : EReal :=
  act (h (ix2 p q)) * (drive gmax esyn q - pull h gmax p q)

/-- The update with the leak folded into the factor `1 - g`. -/
def stepFused (ia h : SBN.Idx → EReal) (gm bm : SN.Idx → EReal) (gmax esyn : SNN.Idx → EReal) : SBN.Idx → EReal :=
  fun i => (((Ideal.ofBits .f32 0x3F800000#32 - memCond gm (i 1)) * h (ix2 (i 0) (i 1)) + bias bm (i 1)) + ia (ix2 (i 0) (i 1)))
    + syn h gmax esyn (i 0) (i 1)

/-- The update as the state plus its increment. -/
def stepSplit (ia h : SBN.Idx → EReal) (gm bm : SN.Idx → EReal) (gmax esyn : SNN.Idx → EReal) : SBN.Idx → EReal :=
  fun i => h (ix2 (i 0) (i 1)) + ((((-(memCond gm (i 1))) * h (ix2 (i 0) (i 1)) + bias bm (i 1)) + ia (ix2 (i 0) (i 1)))
    + syn h gmax esyn (i 0) (i 1))

/-- For real `a` and `x`: `((1 - a) * x + B + I) + S = x + (((-a) * x + B) + I + S)` on the extended reals, whatever
    `B`, `I`, `S` are. Distributivity is used on reals only; the regrouping of the sum is associativity. -/
theorem leak_split (a x : ℝ) (B I S : EReal) :
    ((((1 : EReal) - (a : EReal)) * (x : EReal) + B) + I) + S
      = (x : EReal) + ((((-(a : EReal)) * (x : EReal) + B) + I) + S) := by
  have h1 : ((1 : EReal) - (a : EReal)) * (x : EReal) = (x : EReal) + (-(a : EReal)) * (x : EReal) := by
    rw [← EReal.coe_one, ← EReal.coe_sub, ← EReal.coe_neg, ← EReal.coe_mul, ← EReal.coe_mul, ← EReal.coe_add]
    exact congrArg _ (by ring)
  rw [h1]
  simp only [add_assoc]

/-- A clamp to `[lo, 1]` of a real number is a real number, whatever `lo` is: it lies between the number (or `lo`)
    and one. -/
theorem clamp_one_real (lo : EReal) (r : ℝ) : ∃ a : ℝ, min (1 : EReal) (max lo (r : EReal)) = (a : EReal) := by
  have h1 : (1 : EReal) = ((1 : ℝ) : EReal) := EReal.coe_one.symm
  have htop : min (1 : EReal) (max lo (r : EReal)) ≠ ⊤ :=
    ne_top_of_le_ne_top (h1 ▸ EReal.coe_ne_top 1) (min_le_left _ _)
  have hbot : min (1 : EReal) (max lo (r : EReal)) ≠ ⊥ :=
    ne_of_gt (lt_min (h1 ▸ EReal.bot_lt_coe 1) (lt_of_lt_of_le (EReal.bot_lt_coe r) (le_max_right _ _)))
  exact ⟨_, (EReal.coe_toReal htop hbot).symm⟩

/-- The two arrangements agree wherever the state and the conductance are real numbers. -/
theorem stepFused_eq_stepSplit (ia h : SBN.Idx → EReal) (gm bm : SN.Idx → EReal) (gmax esyn : SNN.Idx → EReal)
    (hh : ∀ i : SBN.Idx, ∃ r : ℝ, h i = (r : EReal)) (hg : ∀ q : SN.Idx, ∃ r : ℝ, gm q = (r : EReal)) :
    stepFused ia h gm bm gmax esyn = stepSplit ia h gm bm gmax esyn := by
  funext i
  obtain ⟨x, hx⟩ := hh (ix2 (i 0) (i 1))
  obtain ⟨r, hr⟩ := hg (ix1 (i 1))
  have hc : ∃ a : ℝ, memCond gm (i 1) = (a : EReal) := by
    unfold memCond; rw [hr, Ideal.ofBits_one_f32]; exact clamp_one_real _ r
  obtain ⟨a, ha⟩ := hc
  unfold stepFused stepSplit
  rw [ha, hx, Ideal.ofBits_one_f32]
  exact leak_split a x _ _ _

end Cert.SynStep

end
-- ==== Proof.RefStep.lean ====
/-
  The reference's result, read one operation at a time, is the update in its "state plus increment" arrangement.

  Every operation of the reference reads one element of each operand (the generated stage lemmas), the sum over
  presynaptic cells and the row-times-column product each as a sum over `k : Fin 128`. What is left are the index
  maps: a per-cell vector spread over the rows reads cell `q`; the drive reads (k, q) of both clamped matrices;
  the product reads (p, k) of the states and (k, q) of the conductances.
-/
import proofs.«158886_j1082331759170_2_alg».proof.Proof.Gen.ReferenceIdeal.Read
import proofs.«158886_j1082331759170_2_alg».proof.Proof.Spec

noncomputable section

namespace Cert.ReferenceIdeal.RefStep

open Cert.ReferenceIdeal Cert.ReferenceIdeal.Read Idealize.ShloMosaic Idealize.ShloMosaic.ValueIdx Cert.SynStep

/-- The reference's last stage is `stepSplit` of the six argument arrays. -/
theorem val_eq_stepSplit (x0 x1 : FVec Ideal S262144x128 .f32) (x2 x3 : FVec Ideal S128 .f32)
    (x4 x5 : FVec Ideal S128x128 .f32) :
    val_main_v21 (F := Ideal) x0 x1 x2 x3 x4 x5 = stepSplit x0 x1 x2 x3 x4 x5 := by
  funext i
  obtain ⟨p, q, rfl⟩ : ∃ (p : Fin 262144) (q : Fin 128), i = ix2 p q := ⟨i 0, i 1, eq_ix2 i⟩
  -- a per-cell vector, laid out as one row and spread over all rows, reads cell q
  have hq1 : idx_main_v13 (idx_main_v14 (ix2 p q)) = ix1 q :=
    funext fun a => Fin.ext (by match a with | ⟨0, _⟩ => rfl)
  have hq2 : idx_main_v16 (idx_main_v17 (ix2 p q)) = ix1 q :=
    funext fun a => Fin.ext (by match a with | ⟨0, _⟩ => rfl)
  -- term k of the drive into cell q reads entry (k, q)
  have hk5 : ∀ k, idx_main_v5 (idx_main_v8 (idx_main_v9 (ix2 p q))) k = ix2 k q := fun k =>
    funext fun a => Fin.ext (by match a with | ⟨0, _⟩ => rfl | ⟨1, _⟩ => rfl)
  -- term k of the product at (p, q) reads (p, k) on the left and (k, q) on the right
  have hl : ∀ k, lidx_main_v7 (ix2 p q) k = ix2 p k := fun k =>
    funext fun a => Fin.ext (by match a with | ⟨0, _⟩ => rfl | ⟨1, _⟩ => rfl)
  have hr : ∀ k, ridx_main_v7 (ix2 p q) k = ix2 k q := fun k =>
    funext fun a => Fin.ext (by match a with | ⟨0, _⟩ => rfl | ⟨1, _⟩ => rfl)
  simp only [val_main_v21_apply, val_main_v20_apply, val_main_v19_apply, val_main_v18_apply, val_main_v17_apply,
    val_main_v16_apply, val_main_v15_apply, val_main_v14_apply, val_main_v13_apply, val_main_v12_apply,
    val_main_v11_apply, val_main_v10_apply, val_main_v9_apply, val_main_v8_apply, val_main_v7_apply, val_main_v6_apply,
    val_main_v5_apply, val_main_v4_apply, val_main_v3_apply, val_main_v2_apply, val_main_v1_apply, val_main_v0_apply,
    val_main_call4_v4_apply, val_main_call4_v3_apply, val_main_call4_v2_apply, val_main_call4_v1_apply, val_main_call4_v0_apply,
    val_main_call3_v4_apply, val_main_call3_v3_apply, val_main_call3_v2_apply, val_main_call3_v1_apply, val_main_call3_v0_apply,
    val_main_call2_v4_apply, val_main_call2_v3_apply, val_main_call2_v2_apply, val_main_call2_v1_apply, val_main_call2_v0_apply,
    val_main_call1_v4_apply, val_main_call1_v3_apply, val_main_call1_v2_apply, val_main_call1_v1_apply, val_main_call1_v0_apply,
    val_main_call0_v4_apply, val_main_call0_v3_apply, val_main_call0_v2_apply, val_main_call0_v1_apply, val_main_call0_v0_apply,
    val_main_cst_apply, val_main_cst_0_apply, val_main_cst_1_apply, val_main_cst_2_apply, val_main_cst_3_apply, val_main_cst_4_apply,
    val_main_cst_5_apply, val_main_cst_6_apply, val_main_cst_7_apply, val_main_cst_8_apply, val_main_cst_9_apply,
    Ideal.addf_def, Ideal.mulf_def, Ideal.subf_def, Ideal.maximumf_def, Ideal.minimumf_def, Ideal.hostNegf_def, Ideal.negf_def,
    Ideal.ofBits_def, hq1, hq2, hk5, hl, hr]
  rfl

end Cert.ReferenceIdeal.RefStep

end
-- ==== Proof.Finite.lean ====
/-
  From the precondition to real numbers.

  The precondition is the conjunction, over the six inputs, of "every element has absolute value below +inf".
  On the extended reals |x| = max x (-x) is +inf exactly at the two infinities, so each conjunct says that every
  element of that input is a real number. Read here for the two inputs whose finiteness the value proof uses: the
  states (argument 1) and the membrane conductances (argument 2).
-/
import proofs.«158886_j1082331759170_2_alg».proof.Pre_finite_inputs
import Idealize.ShloMosaic.PureOps.Ideal.Laws
import Idealize.ShloMosaic.Lib.ReduceAll
import Idealize.ShloMosaic.Lib.Affine
import Idealize.ShloMosaic.Lib.ValueIdx

noncomputable section

namespace Cert.Pre_finite_inputs.Finite

open Idealize.ShloMosaic Cert.Pre_finite_inputs

/-- An extended real whose absolute value is below the +inf pattern is a real number: at either infinity the absolute
    value is +inf, which is not below itself. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- The result of a full reduction has one index. -/
instance : Subsingleton S_.Idx := ⟨fun a b => funext fun d => d.elim0⟩

variable [Facts]

/-- Under the precondition every state and every membrane conductance is a real number. -/
theorem states_and_conductances_real (a0 a1 : FVec Ideal S262144x128 .f32) (a2 a3 : FVec Ideal S128 .f32)
    (a4 a5 : FVec Ideal S128x128 .f32) (h : fn (F := Ideal) a0 a1 a2 a3 a4 a5 = fun _ => 1#1) :
    (∀ i : S262144x128.Idx, ∃ r : ℝ, a1 i = (r : EReal)) ∧ (∀ q : S128.Idx, ∃ r : ℝ, a2 q = (r : EReal)) := by
  have h0 := congrFun h ValueIdx.ix0
  dsimp only [fn, fn_part1] at h0
  -- the conjunction is nested to the left, one input at a time: peel it down to inputs 1 and 2
  obtain ⟨h4, -⟩ := IntOp.andi_eq_one.mp h0
  obtain ⟨h3, -⟩ := IntOp.andi_eq_one.mp h4
  obtain ⟨h2, -⟩ := IntOp.andi_eq_one.mp h3
  obtain ⟨h1, hg⟩ := IntOp.andi_eq_one.mp h2
  obtain ⟨-, hh⟩ := IntOp.andi_eq_one.mp h1
  exact ⟨fun i => real_of_abs_lt_inf (a1 i) (Host.reduce_andi_all _ _ _ _ _ hh i),
    fun q => real_of_abs_lt_inf (a2 q) (Host.reduce_andi_all _ _ _ _ _ hg q)⟩

end Cert.Pre_finite_inputs.Finite

end
-- ==== Proof.Payload.lean ====
/-
  The body's one store, read at an index.

  With the loaded blocks h (states, [8192,128]), W (conductances, [128,128]), the three parameter rows a, b, e
  (each [1,128]) and x (applied current, [8192,128]), the stored value at row p, column q is

      ((a q * h p q + b q) + x p q) + min(1, max(0, h p q)) * (e q - Σ_k h p k * W k q).

  The block product into a zero accumulator is the plain sum over the contracted coordinate; a one-row block spread
  over the rows reads that row at the column; the format change of the states before the product is the identity on
  the extended reals, as is the cast of a block to its own shape.
-/
import proofs.«158886_j1082331759170_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-- The left operand of the block product is read in the output's row. -/
theorem lhs_row (i : S8192x128.Idx) (k : dot_S8192x128_S128x128_S8192x128_1_0_0_1_n_n.contr.Idx) :
    (dot_S8192x128_S128x128_S8192x128_1_0_0_1_n_n.lhsIdx i k 0).val = (i 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl

/-- The right operand is read in the output's column. -/
theorem rhs_col (i : S8192x128.Idx) (k : dot_S8192x128_S128x128_S8192x128_1_0_0_1_n_n.contr.Idx) :
    (dot_S8192x128_S128x128_S8192x128_1_0_0_1_n_n.rhsIdx i k 1).val = (i 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-- The block product into the zero accumulator, at (p, q): the sum over k of left (p, k) times right (k, q). -/
theorem matmul_block_apply (l : FVec Ideal S8192x128 .bf16) (r : FVec Ideal S128x128 .bf16) (p : Fin 8192) (q : Fin 128) :
    matmul dot_S8192x128_S128x128_S8192x128_1_0_0_1_n_n none l r (constant (F := Ideal) S8192x128 .f32 0x00000000#32) (ix2 p q)
      = ∑ k : Fin 128, l (ix2 p k) * r (ix2 k q) := by
  simp only [matmul]
  rw [Ideal.matmul_constant_zero_apply, ← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx (ix2 p q) ((ValueIdx.contrEquiv1 dot_S8192x128_S128x128_S8192x128_1_0_0_1_n_n 128 rfl rfl).symm k) = ix2 p k :=
    funext fun a => Fin.ext (by
      match a with
      | ⟨0, _⟩ => exact lhs_row _ _
      | ⟨1, _⟩ => exact (dot_S8192x128_S128x128_S8192x128_1_0_0_1_n_n.lhsIdx_val_of_single rfl _ _).trans hk)
  have er : dot_S8192x128_S128x128_S8192x128_1_0_0_1_n_n.rhsIdx (ix2 p q) ((ValueIdx.contrEquiv1 dot_S8192x128_S128x128_S8192x128_1_0_0_1_n_n 128 rfl rfl).symm k) = ix2 k q :=
    funext fun a => Fin.ext (by
      match a with
      | ⟨0, _⟩ => exact (dot_S8192x128_S128x128_S8192x128_1_0_0_1_n_n.rhsIdx_val_of_single rfl _ _).trans hk
      | ⟨1, _⟩ => exact rhs_col _ _)
  rw [el, er]

/-- A parameter row, cast to its own shape and spread over the 8192 rows, reads the row at the column. -/
theorem row_spread (v : Vec Ideal S1x128 .f32) (p : Fin 8192) (q : Fin 128) :
    broadcastTo S8192x128 (shapeCast S1x128 v shapeCasts_S1x128_S1x128) broadcasts_S1x128_S8192x128 (ix2 p q)
      = v (ix2 (0 : Fin 1) q) := by
  rw [shapeCast_self]
  exact broadcastTo_1b_ab_apply v broadcasts_S1x128_S8192x128 p q

/-- The stored value at (p, q). -/
theorem pay_apply (v0 : Vec Ideal S8192x128 .f32) (v2 : Vec Ideal S128x128 .bf16) (v5 v7 v9 : Vec Ideal S1x128 .f32)
    (v19 : Vec Ideal S8192x128 .f32) (p : Fin 8192) (q : Fin 128) :
    k0_pay1 (F := Ideal) v0 v2 v5 v7 v9 v19 (ix2 p q)
      = ((v5 (ix2 (0 : Fin 1) q) * v0 (ix2 p q) + v7 (ix2 (0 : Fin 1) q)) + v19 (ix2 p q))
        + min (Ideal.ofBits .f32 0x3F800000#32) (max (Ideal.ofBits .f32 0x00000000#32) (v0 (ix2 p q)))
          * (v9 (ix2 (0 : Fin 1) q) - ∑ k : Fin 128, v0 (ix2 p k) * v2 (ix2 k q)) := by
  unfold k0_pay1
  show ((broadcastTo S8192x128 (shapeCast S1x128 v5 shapeCasts_S1x128_S1x128) broadcasts_S1x128_S8192x128 (ix2 p q) * v0 (ix2 p q)
        + broadcastTo S8192x128 (shapeCast S1x128 v7 shapeCasts_S1x128_S1x128) broadcasts_S1x128_S8192x128 (ix2 p q)) + v19 (ix2 p q))
      + min (Ideal.ofBits .f32 0x3F800000#32) (max (Ideal.ofBits .f32 0x00000000#32) (v0 (ix2 p q)))
        * (broadcastTo S8192x128 (shapeCast S1x128 v9 shapeCasts_S1x128_S1x128) broadcasts_S1x128_S8192x128 (ix2 p q)
          - matmul dot_S8192x128_S128x128_S8192x128_1_0_0_1_n_n none (truncf .bf16 v0 bitsLt_bf16_f32) (shapeCast S128x128 v2 shapeCasts_S128x128_S128x128)
              (constant (F := Ideal) S8192x128 .f32 0x00000000#32) (ix2 p q)) = _
  rw [matmul_block_apply, row_spread v5, row_spread v7, row_spread v9, shapeCast_self]
  rfl

end Cert.KernelIdeal.Payload

end
-- ==== Proof.LibScatterSet.lean ====
/-
  A scatter that SETS (its body returns the update) read at an index.

  `Host.scatter` is a left fold over the update indices in row-major order; each step whose target lies inside the
  operand overwrites ONE element. When the targets are pairwise distinct, the order does not matter to the
  value at an index: an index that is the target of update `j` ends at `upd j`, an index that is no update's
  target keeps the operand's element. The fold lemmas are stated for any list of steps, any index type and
  any combining function; the two scatter lemmas for any operand, index and update shapes.
-/
import Idealize.ShloMosaic.PureOps.ShapeOps

namespace Idealize.ShloMosaic.ScatterSet

/-- A fold of point updates, at an index NO step targets, keeps the starting function's value there. The step is any
    function that overwrites its target (`hsome`) or does nothing (`hnone`). -/
theorem foldl_apply_of_forall_ne {κ ι α : Type} [DecidableEq ι] (tgt : κ → Option ι) (f : α → α → α) (v : κ → α)
    (step : (ι → α) → κ → (ι → α))
    (hsome : ∀ r k i, tgt k = some i → step r k = fun j => if j = i then f (r i) (v k) else r j)
    (hnone : ∀ r k, tgt k = none → step r k = r) (i' : ι) :
    ∀ (l : List κ) (x : ι → α), (∀ k ∈ l, tgt k ≠ some i') → l.foldl step x i' = x i'
  | [], _, _ => rfl
  | k :: l, x, h => by
    rw [List.foldl_cons, foldl_apply_of_forall_ne tgt f v step hsome hnone i' l (step x k)
      (fun k' hk' => h k' (List.mem_cons_of_mem _ hk'))]
    cases ht : tgt k with
    | none => rw [hnone x k ht]
    | some i =>
      rw [hsome x k i ht]
      have hne : i' ≠ i := fun e => h k List.mem_cons_self (by rw [ht, e])
      exact if_neg hne

/-- A fold of point updates over a list without repetition, at the index that step `k` and no other step targets, ends
    at the combining function of the starting value there and step `k`'s value. -/
theorem foldl_apply_of_unique {κ ι α : Type} [DecidableEq ι] (tgt : κ → Option ι) (f : α → α → α) (v : κ → α)
    (step : (ι → α) → κ → (ι → α))
    (hsome : ∀ r k i, tgt k = some i → step r k = fun j => if j = i then f (r i) (v k) else r j)
    (hnone : ∀ r k, tgt k = none → step r k = r) (i' : ι) (k : κ) (hk : tgt k = some i') :
    ∀ (l : List κ) (x : ι → α), l.Nodup → k ∈ l → (∀ k' ∈ l, tgt k' = some i' → k' = k) →
      l.foldl step x i' = f (x i') (v k)
  | [], _, _, hm, _ => absurd hm List.not_mem_nil
  | a :: l, x, hnd, hm, huniq => by
    rw [List.foldl_cons]
    have hnd' := List.nodup_cons.mp hnd
    by_cases hak : a = k
    · subst hak
      rw [foldl_apply_of_forall_ne tgt f v step hsome hnone i' l (step x a) (fun k' hk' e =>
        hnd'.1 ((huniq k' (List.mem_cons_of_mem _ hk') e) ▸ hk')), hsome x a i' hk]
      exact if_pos rfl
    · have hkl : k ∈ l := (List.mem_cons.mp hm).resolve_left (fun e => hak e.symm)
      rw [foldl_apply_of_unique tgt f v step hsome hnone i' k hk l (step x a) hnd'.2 hkl
        (fun k' hk' e => huniq k' (List.mem_cons_of_mem _ hk') e)]
      have hta : tgt a ≠ some i' := fun e => hak (huniq a List.mem_cons_self e)
      cases ht : tgt a with
      | none => rw [hnone x a ht]
      | some i =>
        rw [hsome x a i ht]
        have hne : i' ≠ i := fun e => hta (by rw [ht, e])
        exact congrArg (f · (v k)) (if_neg hne)

variable {s si u : Shape} {α : Type} {w : Nat}

/-- The step of `Host.scatter`'s fold, as the fold lemmas want it: on a target inside the operand it overwrites. -/
private theorem step_some (d : ScatterDims s si u) (f : α → α → α) (idx : IVec si w) (upd : u.Idx → α)
    (r : s.Idx → α) (n : Fin u.numel) (i : s.Idx) (h : d.resultIdx? (u.rowMajor.symm n) idx = some i) :
    (match d.resultIdx? (u.rowMajor.symm n) idx with
      | some i => fun i' => if i' = i then f (r i) (upd (u.rowMajor.symm n)) else r i'
      | none => r) = fun j => if j = i then f (r i) (upd (u.rowMajor.symm n)) else r j := by
  rw [h]

/-- and on a target outside it does nothing. -/
private theorem step_none (d : ScatterDims s si u) (f : α → α → α) (idx : IVec si w) (upd : u.Idx → α)
    (r : s.Idx → α) (n : Fin u.numel) (h : d.resultIdx? (u.rowMajor.symm n) idx = none) :
    (match d.resultIdx? (u.rowMajor.symm n) idx with
      | some i => fun i' => if i' = i then f (r i) (upd (u.rowMajor.symm n)) else r i'
      | none => r) = r := by
  rw [h]

/-- A setting scatter whose update `j` lands at `g j`, `g` injective, read AT a landing index: the update's element. -/
theorem scatter_set_apply_target (d : ScatterDims s si u) (x : s.Idx → α) (idx : IVec si w) (upd : u.Idx → α)
    (g : u.Idx → s.Idx) (hg : Function.Injective g) (htgt : ∀ j, d.resultIdx? j idx = some (g j)) (j : u.Idx) :
    Host.scatter d (fun _ b => b) x idx upd (g j) = upd j := by
  unfold Host.scatter
  refine (foldl_apply_of_unique (fun n : Fin u.numel => d.resultIdx? (u.rowMajor.symm n) idx) (fun _ b => b)
    (fun n => upd (u.rowMajor.symm n)) _
    (fun r n i hn => step_some d (fun _ b => b) idx upd r n i hn)
    (fun r n hn => step_none d (fun _ b => b) idx upd r n hn)
    (g j) (u.rowMajor j) (by rw [Equiv.symm_apply_apply]; exact htgt j)
    (List.finRange u.numel) x (List.nodup_finRange _) (List.mem_finRange _)
    (fun n _ hn => by
      rw [htgt] at hn
      have e := hg (Option.some.inj hn)
      rw [← e, Equiv.apply_symm_apply])).trans ?_
  show upd (u.rowMajor.symm (u.rowMajor j)) = upd j
  rw [Equiv.symm_apply_apply]

/-- The same scatter read at an index that is NO update's landing index: the operand's element. -/
theorem scatter_set_apply_other (d : ScatterDims s si u) (x : s.Idx → α) (idx : IVec si w) (upd : u.Idx → α)
    (g : u.Idx → s.Idx) (htgt : ∀ j, d.resultIdx? j idx = some (g j)) (i : s.Idx) (hi : ∀ j, g j ≠ i) :
    Host.scatter d (fun _ b => b) x idx upd i = x i := by
  unfold Host.scatter
  exact foldl_apply_of_forall_ne (fun n : Fin u.numel => d.resultIdx? (u.rowMajor.symm n) idx) (fun _ b => b)
    (fun n => upd (u.rowMajor.symm n)) _
    (fun r n i hn => step_some d (fun _ b => b) idx upd r n i hn)
    (fun r n hn => step_none d (fun _ b => b) idx upd r n hn)
    i (List.finRange u.numel) x (fun n _ hn => by
      rw [htgt] at hn
      exact hi _ (Option.some.inj hn))

end Idealize.ShloMosaic.ScatterSet
-- ==== Proof.HostSide.lean ====
/-
  What the region finds in the two windows the host wrote.

  Before the launch the host clamps the four parameter arrays, converts the clamped conductances to the narrow float
  format (the identity on the extended reals), and packs three per-cell vectors into rows 0, 1, 2 of an [8,128]
  array of zeros, one row at a time:  row 0 := 1 - g,  row 1 := b,  row 2 := the drive  0 + Σ_k M k q * E k q
  (computed from the converted-and-widened conductances, again the identity here).
  Each packing step sets a whole row at a literal row number, so the updates of one step land on pairwise distinct
  elements, and a later step leaves the earlier rows alone: row r of the packed array is the vector packed at r.
-/
import proofs.«158886_j1082331759170_2_alg».proof.Proof.Gen.KernelIdeal.Frame
import proofs.«158886_j1082331759170_2_alg».proof.Proof.LibScatterSet
import proofs.«158886_j1082331759170_2_alg».proof.Proof.Spec
import Idealize.ShloMosaic.Lib.StableHlo.Run
import Idealize.ShloMosaic.Lib.IdealHost

noncomputable section

namespace Cert.KernelIdeal.HostSide

open Cert.KernelIdeal Cert.KernelIdeal.Gen Idealize.ShloMosaic Idealize.ShloMosaic.TcCoe
open Idealize.SL.Sem Idealize.ShloMosaic.StableHlo Idealize.ShloMosaic.ValueIdx Idealize.ShloMosaic.ScatterSet Cert.SynStep

/-! ## The host's terms -/

/-- A whole array clamped between two literal words, as the host computes it: the minimum of the upper word and the
    maximum of the lower word and the element. -/
def clampArr (S : Shape) (bc : S_.BroadcastsInDim S (![] : Fin 0 → Fin S.rank)) (lo hi : BitVec 32)
    (x : FVec Ideal S .f32) : FVec Ideal S .f32 :=
  minimumf (broadcastInDim S ![] bc (id (constant (F := Ideal) S_ .f32 hi)))
    (maximumf (broadcastInDim S ![] bc (id (constant (F := Ideal) S_ .f32 lo))) x)

theorem clampArr_apply (S : Shape) (bc : S_.BroadcastsInDim S (![] : Fin 0 → Fin S.rank)) (lo hi : BitVec 32)
    (x : FVec Ideal S .f32) (i : S.Idx) :
    clampArr S bc lo hi x i = min (Ideal.ofBits .f32 hi) (max (Ideal.ofBits .f32 lo) (x i)) := by
  unfold clampArr
  show min (broadcastInDim S ![] bc (id (constant (F := Ideal) S_ .f32 hi)) i)
    (max (broadcastInDim S ![] bc (id (constant (F := Ideal) S_ .f32 lo)) i) (x i)) = _
  rw [broadcastInDim_scalar_apply, broadcastInDim_scalar_apply]
  rfl

/-- The conductance block the product reads: the clamped conductances in the narrow format. -/
def gmaxBlock (x4 : FVec Ideal S128x128 .f32) : FVec Ideal S128x128 .bf16 :=
  truncf .bf16 (clampArr S128x128 bcast_S_S128x128 0x00000000#32 0x3F800000#32 x4) bitsLt_bf16_f32

/-- The drive vector: the column sums of conductance times reversal potential. -/
def driveVec (x4 x5 : FVec Ideal S128x128 .f32) : FVec Ideal S128 .f32 :=
  Host.reduceAdd
    (mulf (extf .f32 (gmaxBlock x4) bitsLt_bf16_f32) (clampArr S128x128 bcast_S_S128x128 0xC0400000#32 0x40400000#32 x5))
    (constant (F := Ideal) S_ .f32 0x00000000#32) reducesTo_S128x128_S128_d0 h_S_

/-- The leak-factor vector `1 - g`. -/
def leakVec (x2 : FVec Ideal S128 .f32) : FVec Ideal S128 .f32 :=
  subf (broadcastInDim S128 ![] bcast_S_S128 (constant (F := Ideal) S_ .f32 0x3F800000#32))
    (clampArr S128 bcast_S_S128 0x3C23D70A#32 0x3F800000#32 x2)

/-- The row number a packing step writes, as the host passes it: one word, spread to a length-one index vector. -/
def rowIdx (w : BitVec 32) : IVec S1 32 := broadcastInDim S1 ![] bcast_S_S1 (constantI S_ 32 w)

/-- The packed parameter array: zeros, then row 0, row 1, row 2 set in that order. -/
def paramRows (x2 x3 : FVec Ideal S128 .f32) (x4 x5 : FVec Ideal S128x128 .f32) : FVec Ideal S8x128 .f32 :=
  Host.scatter scatter_S8x128_S1_S128_0_0_0_0 (fun _ b => b)
    (Host.scatter scatter_S8x128_S1_S128_0_0_0_0 (fun _ b => b)
      (Host.scatter scatter_S8x128_S1_S128_0_0_0_0 (fun _ b => b)
        (broadcastInDim S8x128 ![] bcast_S_S8x128 (constant (F := Ideal) S_ .f32 0x00000000#32))
        (rowIdx 0#32) (leakVec x2))
      (rowIdx 1#32) (clampArr S128 bcast_S_S128 0xBF800000#32 0x3F800000#32 x3))
    (rowIdx 2#32) (driveVec x4 x5)

/-! ## The region finds these -/

variable (m : (ℓ : Loc nD τ sig) → Buf (Elt Ideal) ℓ)

/-- The conductance window's array at region entry. -/
theorem V_gmax (c : Dev nD) :
    (V m c main_v4 : S128x128.Idx → EReal) = gmaxBlock (m ((c : Thread nD τ).loc main_arg4)) := by
  dsimp only [Gen.V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

/-- The parameter window's array at region entry. -/
theorem V_params (c : Dev nD) :
    (V m c main_v16 : S8x128.Idx → EReal) = paramRows (m ((c : Thread nD τ).loc main_arg2))
      (m ((c : Thread nD τ).loc main_arg3)) (m ((c : Thread nD τ).loc main_arg4)) (m ((c : Thread nD τ).loc main_arg5)) := by
  dsimp only [Gen.V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

/-! ## Where a packing step lands -/

/-- Update `j` of a packing step at row word `w` (a row number below 8) lands at row `r`, column `j`: the start is the
    row word on the row axis and zero on the column axis, the window coordinate zero on the inserted row axis and
    `j` on the column axis. -/
theorem row_target (w : BitVec 32) (r : Fin 8) (hw : w.toInt = (r.val : Int)) (j : S128.Idx) :
    scatter_S8x128_S1_S128_0_0_0_0.resultIdx? j (rowIdx w) = some (ix2 r (j 0)) := by
  have hidx : ∀ k, rowIdx w k = w := fun k => by
    unfold rowIdx; rw [broadcastInDim_scalar_apply]; rfl
  have hs0 : scatter_S8x128_S1_S128_0_0_0_0.start j (rowIdx w) 0 = (r.val : Int) := by
    unfold ScatterDims.start
    rw [dif_pos (show (0 : Fin S8x128.rank) ∈ scatter_S8x128_S1_S128_0_0_0_0.scatterDimsToOperandDims by decide), hidx]
    exact hw
  have hs1 : scatter_S8x128_S1_S128_0_0_0_0.start j (rowIdx w) 1 = 0 := by
    unfold ScatterDims.start
    rw [dif_neg (show ¬(1 : Fin S8x128.rank) ∈ scatter_S8x128_S1_S128_0_0_0_0.scatterDimsToOperandDims by decide)]
  have hw0 : scatter_S8x128_S1_S128_0_0_0_0.window j 0 = 0 := by
    unfold ScatterDims.window
    rw [dif_neg (show ¬(0 : Fin S8x128.rank) ∈ scatter_S8x128_S1_S128_0_0_0_0.sKept by decide)]
  have hw1 : scatter_S8x128_S1_S128_0_0_0_0.window j 1 = (j 0).val := by
    unfold ScatterDims.window
    rw [dif_pos (show (1 : Fin S8x128.rank) ∈ scatter_S8x128_S1_S128_0_0_0_0.sKept by decide)]
    rfl
  have e0 : scatter_S8x128_S1_S128_0_0_0_0.start j (rowIdx w) 0 + ((scatter_S8x128_S1_S128_0_0_0_0.window j 0 : Nat) : Int) = (r.val : Int) := by
    rw [hs0, hw0]; simp
  have e1 : scatter_S8x128_S1_S128_0_0_0_0.start j (rowIdx w) 1 + ((scatter_S8x128_S1_S128_0_0_0_0.window j 1 : Nat) : Int) = ((j 0).val : Int) := by
    rw [hs1, hw1]; simp
  have hcond : ∀ a, 0 ≤ scatter_S8x128_S1_S128_0_0_0_0.start j (rowIdx w) a + ((scatter_S8x128_S1_S128_0_0_0_0.window j a : Nat) : Int)
      ∧ scatter_S8x128_S1_S128_0_0_0_0.start j (rowIdx w) a + ((scatter_S8x128_S1_S128_0_0_0_0.window j a : Nat) : Int) < ((S8x128.size a : Nat) : Int) := by
    intro a
    match a with
    | ⟨0, _⟩ =>
      show 0 ≤ scatter_S8x128_S1_S128_0_0_0_0.start j (rowIdx w) 0 + ((scatter_S8x128_S1_S128_0_0_0_0.window j 0 : Nat) : Int)
        ∧ scatter_S8x128_S1_S128_0_0_0_0.start j (rowIdx w) 0 + ((scatter_S8x128_S1_S128_0_0_0_0.window j 0 : Nat) : Int) < ((8 : Nat) : Int)
      rw [e0]; have := r.isLt; omega
    | ⟨1, _⟩ =>
      show 0 ≤ scatter_S8x128_S1_S128_0_0_0_0.start j (rowIdx w) 1 + ((scatter_S8x128_S1_S128_0_0_0_0.window j 1 : Nat) : Int)
        ∧ scatter_S8x128_S1_S128_0_0_0_0.start j (rowIdx w) 1 + ((scatter_S8x128_S1_S128_0_0_0_0.window j 1 : Nat) : Int) < ((128 : Nat) : Int)
      rw [e1]; have : (j 0).val < 128 := (j 0).isLt; omega
  unfold ScatterDims.resultIdx?
  rw [dif_pos hcond]
  refine congrArg some (funext fun a => Fin.ext ?_)
  match a with
  | ⟨0, _⟩ =>
    show (scatter_S8x128_S1_S128_0_0_0_0.start j (rowIdx w) 0 + ((scatter_S8x128_S1_S128_0_0_0_0.window j 0 : Nat) : Int)).toNat = r.val
    rw [e0]; simp
  | ⟨1, _⟩ =>
    show (scatter_S8x128_S1_S128_0_0_0_0.start j (rowIdx w) 1 + ((scatter_S8x128_S1_S128_0_0_0_0.window j 1 : Nat) : Int)).toNat = (j 0).val
    rw [e1]; simp

/-- Distinct updates of one step land on distinct elements. -/
theorem row_target_inj (r : Fin 8) : Function.Injective fun j : S128.Idx => (ix2 r (j 0) : S8x128.Idx) := by
  intro j j' e
  have h : j 0 = j' 0 := congrFun e 1
  funext a
  match a with
  | ⟨0, _⟩ => exact h

/-- A step at row `r`, read in row `r`: the packed vector. -/
theorem step_row (w : BitVec 32) (r : Fin 8) (hw : w.toInt = (r.val : Int)) (x : FVec Ideal S8x128 .f32)
    (u : FVec Ideal S128 .f32) (q : Fin 128) :
    Host.scatter scatter_S8x128_S1_S128_0_0_0_0 (fun _ b => b) x (rowIdx w) u (ix2 r q) = u (ix1 q) :=
  scatter_set_apply_target scatter_S8x128_S1_S128_0_0_0_0 x (rowIdx w) u (fun j => ix2 r (j 0)) (row_target_inj r)
    (row_target w r hw) (ix1 q)

/-- A step at row `r`, read in another row: what was there. -/
theorem step_other (w : BitVec 32) (r r' : Fin 8) (hw : w.toInt = (r.val : Int)) (hne : r ≠ r') (x : FVec Ideal S8x128 .f32)
    (u : FVec Ideal S128 .f32) (q : Fin 128) :
    Host.scatter scatter_S8x128_S1_S128_0_0_0_0 (fun _ b => b) x (rowIdx w) u (ix2 r' q) = x (ix2 r' q) :=
  scatter_set_apply_other scatter_S8x128_S1_S128_0_0_0_0 x (rowIdx w) u (fun j => ix2 r (j 0)) (row_target w r hw) (ix2 r' q)
    (fun j e => hne (congrFun e 0))

/-! ## The rows, and the conductance block, at an index -/

theorem gmax_apply (x4 : FVec Ideal S128x128 .f32) (k q : Fin 128) : gmaxBlock x4 (ix2 k q) = wgt x4 k q := by
  unfold gmaxBlock wgt
  show clampArr S128x128 bcast_S_S128x128 0x00000000#32 0x3F800000#32 x4 (ix2 k q) = _
  rw [clampArr_apply]

/-- Row 0 is the leak factor. -/
theorem params_row0 (x2 x3 : FVec Ideal S128 .f32) (x4 x5 : FVec Ideal S128x128 .f32) (q : Fin 128) :
    paramRows x2 x3 x4 x5 (ix2 (0 : Fin 8) q) = Ideal.ofBits .f32 0x3F800000#32 - memCond x2 q := by
  unfold paramRows
  rw [step_other 2#32 2 0 (by decide) (by decide), step_other 1#32 1 0 (by decide) (by decide),
    step_row 0#32 0 (by decide)]
  unfold leakVec memCond
  show broadcastInDim S128 ![] bcast_S_S128 (constant (F := Ideal) S_ .f32 0x3F800000#32) (ix1 q)
    - clampArr S128 bcast_S_S128 0x3C23D70A#32 0x3F800000#32 x2 (ix1 q) = _
  rw [broadcastInDim_scalar_apply, clampArr_apply]
  rfl

/-- Row 1 is the clamped bias. -/
theorem params_row1 (x2 x3 : FVec Ideal S128 .f32) (x4 x5 : FVec Ideal S128x128 .f32) (q : Fin 128) :
    paramRows x2 x3 x4 x5 (ix2 (1 : Fin 8) q) = bias x3 q := by
  unfold paramRows
  rw [step_other 2#32 2 1 (by decide) (by decide), step_row 1#32 1 (by decide), clampArr_apply]
  rfl

/-- Row 2 is the drive. -/
theorem params_row2 (x2 x3 : FVec Ideal S128 .f32) (x4 x5 : FVec Ideal S128x128 .f32) (q : Fin 128) :
    paramRows x2 x3 x4 x5 (ix2 (2 : Fin 8) q) = drive x4 x5 q := by
  unfold paramRows
  rw [step_row 2#32 2 (by decide)]
  unfold driveVec drive
  rw [hostReduceAdd_apply, Ideal.hostReduceAdd_single reducesTo_S128x128_S128_d0 (by decide)]
  refine congrArg₂ (· + ·) rfl (Finset.sum_congr rfl fun (k : Fin 128) _ => ?_)
  have hk : (by decide : S128x128.Reduces [0] S128).lift (ix1 q) k = ix2 k q :=
    funext fun a => Fin.ext (by match a with | ⟨0, _⟩ => rfl | ⟨1, _⟩ => rfl)
  rw [hk]
  show gmaxBlock x4 (ix2 k q) * clampArr S128x128 bcast_S_S128x128 0xC0400000#32 0x40400000#32 x5 (ix2 k q) = _
  rw [gmax_apply, clampArr_apply]
  rfl

end Cert.KernelIdeal.HostSide

end
-- ==== Proof.Blocks.lean ====
/-
  From what each grid point writes back to the whole output array.

  Point t of the 32 stages rows [8192 t, 8192 t + 8192) of the applied current and of the states, the whole packed
  parameter array and the whole conductance array, and writes back rows [8192 t, 8192 t + 8192) of the output. Its
  stored value at local (p, q) is therefore the fused update at global (8192 t + p, q): the products along a row only
  read that row of the states, and everything else is read in column q. The 32 row blocks cover the array (row r is
  in block r / 8192), so after the run the output array IS the fused update of the argument arrays.
-/
import proofs.«158886_j1082331759170_2_alg».proof.Proof.Gen.KernelIdeal.Value
import proofs.«158886_j1082331759170_2_alg».proof.Proof.Payload
import proofs.«158886_j1082331759170_2_alg».proof.Proof.HostSide
import proofs.«158886_j1082331759170_2_alg».proof.Proof.Spec

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.SynStep Cert.KernelIdeal.HostSide Cert.KernelIdeal.Payload
open Idealize.ShloMosaic.Pipeline (Dat)

/-! ## One point, over plain blocks -/

/-- Row 0 of the parameter block, through the rectangle the body loads it by. -/
theorem ld_row0 (x2 : Vec Ideal S8x128 .f32) (q : Fin 128) :
    View.ld x2 r0_2 (ix2 (0 : Fin 1) q) = x2 (ix2 (0 : Fin 8) q) :=
  congrArg x2 (funext fun a => Fin.ext (by
    match a with
    | ⟨0, _⟩ => rfl
    | ⟨1, _⟩ => show 0 + 1 * q.val = q.val; omega))

/-- Row 1. -/
theorem ld_row1 (x2 : Vec Ideal S8x128 .f32) (q : Fin 128) :
    View.ld x2 r0_3 (ix2 (0 : Fin 1) q) = x2 (ix2 (1 : Fin 8) q) :=
  congrArg x2 (funext fun a => Fin.ext (by
    match a with
    | ⟨0, _⟩ => rfl
    | ⟨1, _⟩ => show 0 + 1 * q.val = q.val; omega))

/-- Row 2. -/
theorem ld_row2 (x2 : Vec Ideal S8x128 .f32) (q : Fin 128) :
    View.ld x2 r0_4 (ix2 (0 : Fin 1) q) = x2 (ix2 (2 : Fin 8) q) :=
  congrArg x2 (funext fun a => Fin.ext (by
    match a with
    | ⟨0, _⟩ => rfl
    | ⟨1, _⟩ => show 0 + 1 * q.val = q.val; omega))

/-- The stored value of a point whose current and state blocks are rows `P 0 … P 8191` of the arrays `ia`, `h`, and
    whose parameter and conductance blocks are the host's: the fused update at row `P p`. -/
theorem point_value (x0 x1 : Vec Ideal S8192x128 .f32) (ia h : SBN.Idx → EReal) (gm bm : SN.Idx → EReal)
    (gmax esyn : SNN.Idx → EReal) (P : Fin 8192 → Fin 262144)
    (h0 : ∀ j : S8192x128.Idx, x0 j = ia (ix2 (P (j 0)) (j 1)))
    (h1 : ∀ j : S8192x128.Idx, x1 j = h (ix2 (P (j 0)) (j 1))) (j : S8192x128.Idx) :
    k0_pay1 (F := Ideal) x1 (gmaxBlock gmax) (View.ld (paramRows gm bm gmax esyn) r0_2)
        (View.ld (paramRows gm bm gmax esyn) r0_3) (View.ld (paramRows gm bm gmax esyn) r0_4) x0 j
      = stepFused ia h gm bm gmax esyn (ix2 (P (j 0)) (j 1)) := by
  obtain ⟨p, q, rfl⟩ : ∃ (p : Fin 8192) (q : Fin 128), j = ix2 p q := ⟨j 0, j 1, eq_ix2 j⟩
  rw [pay_apply, ld_row0, ld_row1, ld_row2, params_row0, params_row1, params_row2]
  simp only [gmax_apply, h0, h1]
  unfold stepFused syn act pull
  rfl

/-! ## The points of the grid -/

variable (m : (ℓ : Loc nD τ sig) → Buf (Elt Ideal) ℓ) (ρ : Dev nD → PrngReg)

/-- The output array as one function of the argument arrays. -/
def result (c : Dev nD) : S262144x128.Idx → EReal :=
  stepFused (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem zero_offsets : (![0, 0] : Fin 2 → Nat) = fun _ => 0 := funext fun a => by fin_cases a <;> rfl

/-- The printed index maps, decided over the 32 points: the current, the states and the output move with the point
    along the rows; the parameters and the conductances stay at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 32 := lt_of_lt_of_eq t.isLt N_0

/-- The global row of local row `p` at point `t`. -/
def rowOf (t : Fin cfg0.N) (p : Fin 8192) : Fin 262144 :=
  ⟨t.val * 8192 + p.val, by have := point_lt t; have := p.isLt; omega⟩

/-- The parameter window's block at any point is the host's packed array. -/
theorem params_block (c : Dev nD) (t : Fin cfg0.N) (y : S8x128.Idx) :
    iblk m c 2 t y = paramRows (m ((c : Thread nD τ).loc main_arg2)) (m ((c : Thread nD τ).loc main_arg3)) (m ((c : Thread nD τ).loc main_arg4)) (m ((c : Thread nD τ).loc main_arg5)) y := by
  obtain ⟨-, -, -, -, e0, e1, -, -, -, -⟩ := index_maps t
  rw [← V_params m c]
  show V m c main_v16 (((cfg0.win 2).blk t).view.emb y) = V m c main_v16 y
  refine congrArg _ (funext fun a => Fin.ext ?_)
  match a with
  | ⟨0, _⟩ => show win0_2.index t (0 : Fin 2) * 8 + 1 * (y 0).val = (y 0).val; rw [e0]; omega
  | ⟨1, _⟩ => show win0_2.index t (1 : Fin 2) * 128 + 1 * (y 1).val = (y 1).val; rw [e1]; omega

/-- The conductance window's block at any point is the host's clamped, narrowed conductances. -/
theorem gmax_block (c : Dev nD) (t : Fin cfg0.N) (y : S128x128.Idx) :
    iblk m c 3 t y = gmaxBlock (m ((c : Thread nD τ).loc main_arg4)) y := by
  obtain ⟨-, -, -, -, -, -, e0, e1, -, -⟩ := index_maps t
  rw [← V_gmax m c]
  show V m c main_v4 (((cfg0.win 3).blk t).view.emb y) = V m c main_v4 y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The current window's block at point `t` is rows `rowOf t` of argument 0. -/
theorem current_block (c : Dev nD) (t : Fin cfg0.N) (j : S8192x128.Idx) :
    iblk m c 0 t j = (m ((c : Thread nD τ).loc main_arg0)) (ix2 (rowOf t (j 0)) (j 1)) := by
  obtain ⟨e0, e1, -, -, -, -, -, -, -, -⟩ := index_maps t
  show V m c main_arg0 (((cfg0.win 0).blk t).view.emb j) = _
  rw [V_main_arg0]
  refine congrArg _ (funext fun a => Fin.ext ?_)
  match a with
  | ⟨0, _⟩ => show win0_0.index t (0 : Fin 2) * 8192 + 1 * (j 0).val = t.val * 8192 + (j 0).val; rw [e0]; omega
  | ⟨1, _⟩ => show win0_0.index t (1 : Fin 2) * 128 + 1 * (j 1).val = (j 1).val; rw [e1]; omega

/-- The state window's block at point `t` is rows `rowOf t` of argument 1. -/
theorem state_block (c : Dev nD) (t : Fin cfg0.N) (j : S8192x128.Idx) :
    iblk m c 1 t j = (m ((c : Thread nD τ).loc main_arg1)) (ix2 (rowOf t (j 0)) (j 1)) := by
  obtain ⟨-, -, e0, e1, -, -, -, -, -, -⟩ := index_maps t
  show V m c main_arg1 (((cfg0.win 1).blk t).view.emb j) = _
  rw [V_main_arg1]
  refine congrArg _ (funext fun a => Fin.ext ?_)
  match a with
  | ⟨0, _⟩ => show win0_1.index t (0 : Fin 2) * 8192 + 1 * (j 0).val = t.val * 8192 + (j 0).val; rw [e0]; omega
  | ⟨1, _⟩ => show win0_1.index t (1 : Fin 2) * 128 + 1 * (j 1).val = (j 1).val; rw [e1]; omega

/-- What point `t` writes back is block `t` of `result`. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero zero_offsets]
  simp only [View.ld_unit_zero (S := S8192x128) zero_offsets, View.ld_unit_zero (S := S128x128) zero_offsets]
  have hp : iblk m c 2 t = paramRows (m ((c : Thread nD τ).loc main_arg2)) (m ((c : Thread nD τ).loc main_arg3)) (m ((c : Thread nD τ).loc main_arg4)) (m ((c : Thread nD τ).loc main_arg5)) := funext (params_block m c t)
  have hg : iblk m c 3 t = gmaxBlock (m ((c : Thread nD τ).loc main_arg4)) := funext (gmax_block m c t)
  rw [hp, hg]
  obtain ⟨-, -, -, -, -, -, -, -, e0, e1⟩ := index_maps t
  funext j
  show k0_pay1 (F := Ideal) (iblk m c 1 t) (gmaxBlock (m ((c : Thread nD τ).loc main_arg4)))
      (View.ld (paramRows (m ((c : Thread nD τ).loc main_arg2)) (m ((c : Thread nD τ).loc main_arg3)) (m ((c : Thread nD τ).loc main_arg4)) (m ((c : Thread nD τ).loc main_arg5))) r0_2)
      (View.ld (paramRows (m ((c : Thread nD τ).loc main_arg2)) (m ((c : Thread nD τ).loc main_arg3)) (m ((c : Thread nD τ).loc main_arg4)) (m ((c : Thread nD τ).loc main_arg5))) r0_3)
      (View.ld (paramRows (m ((c : Thread nD τ).loc main_arg2)) (m ((c : Thread nD τ).loc main_arg3)) (m ((c : Thread nD τ).loc main_arg4)) (m ((c : Thread nD τ).loc main_arg5))) r0_4) (iblk m c 0 t) j
    = result m c (((cfg0.win 4).blk t).view.emb j)
  refine (point_value (iblk m c 0 t) (iblk m c 1 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowOf t)
    (current_block m c t) (state_block m c t) j).trans ?_
  unfold result
  refine congrArg _ (funext fun a => Fin.ext ?_)
  match a with
  | ⟨0, _⟩ => show t.val * 8192 + (j 0).val = win0_4.index t (0 : Fin 2) * 8192 + 1 * (j 0).val; rw [e0]; omega
  | ⟨1, _⟩ => show (j 1).val = win0_4.index t (1 : Fin 2) * 128 + 1 * (j 1).val; rw [e1]; omega

/-- An index of the array is in point `t`'s block iff each coordinate is in the block's range on its axis. -/
theorem mem_block (t : Fin cfg0.N) (i : S262144x128.Idx) :
    i ∈ ((cfg0.win 4).blk t).view.set ↔ ∀ a : Fin 2, win0_4.index t a * S8192x128.size a ≤ (i a).val
      ∧ (i a).val < win0_4.index t a * S8192x128.size a + S8192x128.size a := by
  show i ∈ ((View.whole main_v17).slice (win0_4.rect t)).set ↔ _
  rw [View.set_slice_whole, Rect.mem_set_unit]
  exact Iff.rfl

/-- Every index of the output array is in some point's block: row `r` in the block of point `r / 8192`. -/
theorem cover (i : S262144x128.Idx) :
    ∃ t : Fin cfg0.N, (cfg0.win 4).flush t = true ∧ i ∈ ((cfg0.win 4).blk t).view.set := by
  have hi0 : (i 0).val < 262144 := (i 0).isLt
  have hi1 : (i 1).val < 128 := (i 1).isLt
  have hlt : (i 0).val / 8192 < cfg0.N := lt_of_lt_of_eq (by omega : (i 0).val / 8192 < 32) N_0.symm
  obtain ⟨-, -, -, -, -, -, -, -, e0, e1⟩ := index_maps ⟨(i 0).val / 8192, hlt⟩
  refine ⟨⟨(i 0).val / 8192, hlt⟩, flush0_4 _, ?_⟩
  rw [mem_block]
  intro a
  match a with
  | ⟨0, _⟩ =>
    show win0_4.index ⟨(i 0).val / 8192, hlt⟩ (0 : Fin 2) * 8192 ≤ (i 0).val
      ∧ (i 0).val < win0_4.index ⟨(i 0).val / 8192, hlt⟩ (0 : Fin 2) * 8192 + 8192
    rw [e0]; show (i 0).val / 8192 * 8192 ≤ (i 0).val ∧ (i 0).val < (i 0).val / 8192 * 8192 + 8192; omega
  | ⟨1, _⟩ =>
    show win0_4.index ⟨(i 0).val / 8192, hlt⟩ (1 : Fin 2) * 128 ≤ (i 1).val
      ∧ (i 1).val < win0_4.index ⟨(i 0).val / 8192, hlt⟩ (1 : Fin 2) * 128 + 128
    rw [e1]; omega

/-- The output array after the run. -/
theorem final (c : Dev nD) : (dats m 0 c).arrAt 4 cfg0.N = result m c :=
  (dats m 0 c).arrAt_eq_of_cover 4 (result m c) (fun t _ => flushed_eq m c t) cover

/-- The kernel's run with its result named: the fused update of the argument arrays, the arguments unchanged. -/
theorem run : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Blocks

end
-- ==== Proof.lean ====
/-
  The synaptic cell's step: the tiled kernel against the plain reference, equal on the extended reals.

  Both programs compute, for every row p of 262144 states and every cell q of 128,

      new p q = h p q  -  g q * h p q  +  b q  +  i_app p q  +  act (h p q) * (drive q - Σ_k h p k * M k q)

  with g, b, M, E the four parameter arrays clamped to their ranges, act the state clamped to [0, 1] and
  drive q = Σ_k M k q * E k q. The reference adds the increment to the state; the kernel folds the leak into the one
  factor (1 - g q), packs (1 - g, b, drive) into three rows of a small array on the host, and computes 8192 rows per
  grid point with the row-times-matrix product done as a block product. On the extended reals the narrow float format
  of the product's operands is the identity, a block product into zero and the host's contraction are the same sum
  over k, and the two arrangements of the leak term agree wherever the state and the conductance are real numbers —
  which the precondition (every input finite) provides. So both runs end with the result array at ONE function of the
  argument arrays (`Cert.KernelIdeal.Blocks.result`, the fused arrangement).

  The modules: Spec (the function, both arrangements, and the law between them), RefStep (the reference is the split
  arrangement), Payload (the body's store at an index), LibScatterSet and HostSide (the packed rows the host wrote),
  Blocks (from the 32 points' blocks to the whole array), Finite (the precondition gives real numbers).
  The three frames are the generated ones (the reference's is its run with the result dropped); the idealization
  rewrote nothing, so `preserves` has nothing to state.
-/
import proofs.«158886_j1082331759170_2_alg».proof.Defs
import proofs.«158886_j1082331759170_2_alg».proof.Proof.Gen.Kernel
import proofs.«158886_j1082331759170_2_alg».proof.Proof.Gen.Kernel.Skeleton
import proofs.«158886_j1082331759170_2_alg».proof.Proof.Gen.Kernel.Launch
import proofs.«158886_j1082331759170_2_alg».proof.Proof.Gen.Kernel.Points
import proofs.«158886_j1082331759170_2_alg».proof.Proof.Gen.Kernel.Frame
import proofs.«158886_j1082331759170_2_alg».proof.Proof.Gen.KernelIdeal
import proofs.«158886_j1082331759170_2_alg».proof.Proof.Gen.KernelIdeal.Skeleton
import proofs.«158886_j1082331759170_2_alg».proof.Proof.Gen.KernelIdeal.Launch
import proofs.«158886_j1082331759170_2_alg».proof.Proof.Gen.KernelIdeal.Points
import proofs.«158886_j1082331759170_2_alg».proof.Proof.Gen.KernelIdeal.Frame
import proofs.«158886_j1082331759170_2_alg».proof.Proof.Gen.ReferenceIdeal
import proofs.«158886_j1082331759170_2_alg».proof.Proof.Gen.Pre_finite_inputs
import proofs.«158886_j1082331759170_2_alg».proof.Proof.Gen.KernelIdeal.Value
import proofs.«158886_j1082331759170_2_alg».proof.Proof.Gen.ReferenceIdeal.Run
import proofs.«158886_j1082331759170_2_alg».proof.Proof.Gen.ReferenceIdeal.Read
import proofs.«158886_j1082331759170_2_alg».proof.Proof.Spec
import proofs.«158886_j1082331759170_2_alg».proof.Proof.RefStep
import proofs.«158886_j1082331759170_2_alg».proof.Proof.Finite
import proofs.«158886_j1082331759170_2_alg».proof.Proof.Blocks
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its frame is its run with the result dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both idealized programs end with the result at the fused update of the kernel's argument arrays: the kernel by its
    blocks, the reference because its split arrangement is the fused one where the states and the conductances are
    real numbers, which the precondition says they are. -/
theorem algebraic : Cert.algebraic_KernelIdeal_ReferenceIdeal := by
  intro m ρ m' ρ' hpre hagree
  refine ⟨fun c => Cert.KernelIdeal.Blocks.result m c, fun c => Cert.KernelIdeal.Blocks.result m c, ?_, ?_⟩
  · exact (θ_run Cert.KernelIdeal.defs _ _).mono (fun r h c => ⟨(h c).1, (h c).1, (h c).2⟩)
      (Cert.KernelIdeal.Blocks.run m ρ)
  · refine (θ_run Cert.ReferenceIdeal.defs _ _).mono (fun r h c => ?_)
      (Cert.ReferenceIdeal.Value.run (F := Ideal) m' ρ')
    obtain ⟨hh, hg⟩ := Cert.Pre_finite_inputs.Finite.states_and_conductances_real _ _ _ _ _ _ (hpre c)
    have fin : Cert.SynStep.stepSplit (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        = Cert.KernelIdeal.Blocks.result m c := by
      rw [(hagree c).1, (hagree c).2.1, (hagree c).2.2.1, (hagree c).2.2.2.1, (hagree c).2.2.2.2.1,
        (hagree c).2.2.2.2.2]
      exact (Cert.SynStep.stepFused_eq_stepSplit _ _ _ _ _ _ hh hg).symm
    exact ⟨(h c).1.trans ((Cert.ReferenceIdeal.Read.val_main_v21_eq (F := Ideal) _ _ _ _ _ _).trans
        ((Cert.ReferenceIdeal.RefStep.val_eq_stepSplit _ _ _ _ _ _).trans fin)),
      (h c).2.1.trans ((Cert.ReferenceIdeal.Read.val_main_v21_eq (F := Ideal) _ _ _ _ _ _).trans
        ((Cert.ReferenceIdeal.RefStep.val_eq_stepSplit _ _ _ _ _ _).trans fin)),
      (h c).2.2⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
